-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S40x32 : Shape := ⟨2, ![40, 32]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S40x32 : S_.BroadcastsInDim S40x32 (![] : Fin 0 → Fin S40x32.rank)
  reducesTo_S40x32_S_d0_1 : S40x32.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x32 .f32) (main_arg9 : FVec F S40 .f32) (main_v33 : IVec S_ 1) : IVec S_ 1 :=
  let main_v34 : FVec F S40x32 .f32 := Host.absf main_arg8
  let main_cst_12 : FVec F S_ .f32 := constant S_ .f32 0x7F800000#32
  let main_v35 : FVec F S40x32 .f32 := broadcastInDim S40x32 ![] bcast_S_S40x32 main_cst_12
  let main_v36 : IVec S40x32 1 := cmpf .olt main_v34 main_v35
  let main_c_13 : IVec S_ 1 := constantI S_ 1 1#1
  let main_v37 : IVec S_ 1 := (fun x v => Host.reduce IntOp.andi x v reducesTo_S40x32_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S32x64 .f32) (main_arg6 : FVec F S32 .f32) (main_arg7 : FVec F S32x64 .f32) (main_arg8 : FVec F S40x32 .f32) (main_arg9 : FVec F S40 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S64x128 .f32) (main_arg3 : FVec F S64 .f32) (main_arg4 : FVec F S64x128 .f32) (main_arg5 : FVec F S32x64 .f32) (main_arg6 : FVec F S32 .f32) (main_arg7 : FVec F S32x64 .f32) (main_arg8 : FVec F S40x32 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S40x32 : Shape := ⟨2, ![40, 32]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S128x64 : Shape := ⟨2, ![128, 64]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S64x32 : Shape := ⟨2, ![64, 32]⟩
abbrev S32x40 : Shape := ⟨2, ![32, 40]⟩
abbrev S1x32 : Shape := ⟨2, ![1, 32]⟩
abbrev S1x40 : Shape := ⟨2, ![1, 40]⟩
abbrev S50000x32 : Shape := ⟨2, ![50000, 32]⟩
abbrev S50000x40 : Shape := ⟨2, ![50000, 40]⟩
abbrev S5000x32 : Shape := ⟨2, ![5000, 32]⟩
abbrev S5000x40 : Shape := ⟨2, ![5000, 40]⟩

abbrev nBuf : Space → Nat
  | .hbm => 69
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S40x32, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x64, .f32⟩
  | .hbm, ⟨43, _⟩ => ⟨S128x64, .f32⟩
  | .hbm, ⟨44, _⟩ => ⟨S1x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S50000x1, .f32⟩
  | .hbm, ⟨60, _⟩ => ⟨S50000x64, .f32⟩
  | .hbm, ⟨61, _⟩ => ⟨S50000x64, .f32⟩
  | .hbm, ⟨62, _⟩ => ⟨S64x32, .f32⟩
  | .hbm, ⟨63, _⟩ => ⟨S64x32, .f32⟩
  | .hbm, ⟨64, _⟩ => ⟨S32x40, .f32⟩
  | .hbm, ⟨65, _⟩ => ⟨S1x32, .f32⟩
  | .hbm, ⟨66, _⟩ => ⟨S1x40, .f32⟩
  | .hbm, ⟨67, _⟩ => ⟨S50000x32, .f32⟩
  | .hbm, ⟨68, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S32x40, .f32⟩
  | .local _ .vmem, ⟨17, _⟩ => ⟨S1x40, .f32⟩
  | .local _ .vmem, ⟨18, _⟩ => ⟨S5000x32, .f32⟩
  | .local _ .vmem, ⟨19, _⟩ => ⟨S5000x32, .f32⟩
  | .local _ .vmem, ⟨20, _⟩ => ⟨S5000x40, .f32⟩
  | .local _ .vmem, ⟨21, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47_0 : Ref sig .tc := ⟨.hbm, 67, rfl⟩
abbrev main_v47_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x40 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S32x64_S64x32_1_0 : S32x64.Transposes [1, 0] S64x32
  transposes_S40x32_S32x40_1_0 : S40x32.Transposes [1, 0] S32x40
  shapeCasts_S32_S1x32 : S32.ShapeCasts S1x32
  shapeCasts_S40_S1x40 : S40.ShapeCasts S1x40
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  inb_S32x40_S32x40_0_0 : ∀ a, (![0, 0] : Fin 2 → Nat) a + S32x40.size a ≤ S32x40.size a
  h_S32x40 : 0 < S32x40.numel
  shapeCasts_S32x40_S32x40 : S32x40.ShapeCasts S32x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x32_S5000x32_1_0_0_1_n_n_wf : DotDims.WF S5000x64 S64x32 S5000x32 [1] [0] [0] [1] [] []
  dot_S5000x32_S32x40_S5000x40_1_0_0_1_n_n_wf : DotDims.WF S5000x32 S32x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x40.size a ≤ S32x40.size a
  hwx1_5 : ∀ i : grid1.Coords, EltTy.bits .f32 = 32 ∨ (Rect.block (s := S32x40) S32x40.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x40.size a ≤ S1x40.size a
  hwx1_6 : ∀ i : grid1.Coords, EltTy.bits .f32 = 32 ∨ (Rect.block (s := S1x40) S1x40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x32.size a ≤ S50000x32.size a
  hwx1_7 : ∀ i : grid1.Coords, EltTy.bits .f32 = 32 ∨ (Rect.block (s := S50000x32) S5000x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x40.size a ≤ S50000x40.size a
  hwx1_8 : ∀ i : grid1.Coords, EltTy.bits .f32 = 32 ∨ (Rect.block (s := S50000x40) S5000x40.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x40_S5000x40_1_0_0_1_n_n : DotDims S5000x32 S32x40 S5000x40 where
  lhsContracting := [1]
  rhsContracting := [0]
  lhsNonContracting := [0]
  rhsNonContracting := [1]
  lhsBatch := []
  rhsBatch := []
  wf := dot_S5000x32_S32x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S32x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47_0) S5000x32.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v47_1) S5000x40.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S40x32 : Shape := ⟨2, ![40, 32]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x64 : Shape := ⟨2, ![128, 64]⟩
abbrev S50000x64 : Shape := ⟨2, ![50000, 64]⟩
abbrev S1x64 : Shape := ⟨2, ![1, 64]⟩
abbrev S800000x64 : Shape := ⟨2, ![800000, 64]⟩
abbrev S64x32 : Shape := ⟨2, ![64, 32]⟩
abbrev S50000x32 : Shape := ⟨2, ![50000, 32]⟩
abbrev S1x32 : Shape := ⟨2, ![1, 32]⟩
abbrev S32x40 : Shape := ⟨2, ![32, 40]⟩
abbrev S50000x40 : Shape := ⟨2, ![50000, 40]⟩
abbrev S1x40 : Shape := ⟨2, ![1, 40]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S40x32, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x64, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S128x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x64, .f32⟩
  | .hbm, ⟨74, _⟩ => ⟨S50000x64, .f32⟩
  | .hbm, ⟨75, _⟩ => ⟨S64x32, .f32⟩
  | .hbm, ⟨76, _⟩ => ⟨S50000x32, .f32⟩
  | .hbm, ⟨77, _⟩ => ⟨S1x32, .f32⟩
  | .hbm, ⟨78, _⟩ => ⟨S50000x32, .f32⟩
  | .hbm, ⟨79, _⟩ => ⟨S50000x32, .f32⟩
  | .hbm, ⟨80, _⟩ => ⟨S64x32, .f32⟩
  | .hbm, ⟨81, _⟩ => ⟨S50000x32, .f32⟩
  | .hbm, ⟨82, _⟩ => ⟨S50000x32, .f32⟩
  | .hbm, ⟨83, _⟩ => ⟨S_, .f32⟩
  | .hbm, ⟨84, _⟩ => ⟨S50000x32, .f32⟩
  | .hbm, ⟨85, _⟩ => ⟨S50000x32, .f32⟩
  | .hbm, ⟨86, _⟩ => ⟨S32x40, .f32⟩
  | .hbm, ⟨87, _⟩ => ⟨S50000x40, .f32⟩
  | .hbm, ⟨88, _⟩ => ⟨S1x40, .f32⟩
  | .hbm, ⟨89, _⟩ => ⟨S50000x40, .f32⟩
  | .hbm, ⟨90, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S32x64_S64x32_1_0 : S32x64.Transposes [1, 0] S64x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  transposes_S40x32_S32x40_1_0 : S40x32.Transposes [1, 0] S32x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  dot_S50000x32_S32x40_S50000x40_1_0_0_1_n_n_wf : DotDims.WF S50000x32 S32x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x40_S50000x40_1_0_0_1_n_n : DotDims S50000x32 S32x40 S50000x40 where
  lhsContracting := [1]
  rhsContracting := [0]
  lhsNonContracting := [0]
  rhsNonContracting := [1]
  lhsBatch := []
  rhsBatch := []
  wf := dot_S50000x32_S32x40_S50000x40_1_0_0_1_n_n_wf

class Facts : Prop extends Facts₀ where

variable [Facts]
-- ==== Proof.KernelRun.lean ====
/-
  The idealized kernel's run with its two results named.

  @main is two host stretches and two kernel regions. The buffer contents at the segment boundaries are a fold from
  the launch memory: after the first stretch, after region 0 (its arrays at what the write-backs leave), after the
  second stretch, after region 1. Every weakly fair execution ends with every unscoped buffer at the last boundary's
  contents; so the two result buffers end at what region 1's write-backs leave in its two output windows, and the
  argument arrays end as launched.
-/
import proofs.«177301_j84413287236240_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at what region 1 leaves in
    its output windows 7 and 8 and the arguments as launched. -/
theorem run : θ_run defs (onTc (τ := τ) (main (F := F))) ⟨m, fun _ => 0, ρ⟩ (fun r => ∀ c : Dev nD,
      r.2.mem ((c.tc : Thread nD τ).loc main_v47_0) = (dat1 (V3 m ρ) c).arrAt 7 cfg1.N
      ∧ r.2.mem ((c.tc : Thread nD τ).loc main_v47_1) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v47_0 (by decide))).trans (W4_arr m ρ c 7),
       (h c _ (mem_uc main_v47_1 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.Spec.lean ====
/-
  The node map of a two-layer mean-aggregation graph network, entry by entry, and the one law that joins its two
  spellings.

  A layer takes, for every node, the mean of its in-neighbours' features and the node's own features, multiplies each
  by a weight matrix, adds a bias and clamps below at zero:
    layer mean root Wl Wr b (p, q) = max (Σₖ mean(p,k)·Wl(k,q) + Σₖ root(p,k)·Wr(k,q) + b(q)) 0.
  The final affine map is  fc h W b (p, q) = Σₖ h(p,k)·W(k,q) + b(q).
  The mean is the neighbour sum divided by the in-degree clamped below by one. One program multiplies the sum by the
  reciprocal 1 / max(deg, 1), the other divides the sum by max(deg, 1); on the extended reals the two agree because the
  in-degree is a real number and max(deg, 1) ≥ 1 is not zero (`mean_law`).
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- The single-precision word of 1.0, as an extended real. -/
abbrev one : EReal := Ideal.ofBits .f32 0x3F800000#32
/-- The single-precision word of +0.0, as an extended real (never evaluated: both programs clamp at the same word). -/
abbrev zero : EReal := Ideal.ofBits .f32 0x00000000#32

/-- The word of 1.0 denotes the real number one. -/
theorem ofBits_one : Ideal.ofBits .f32 0x3F800000#32 = 1 := by
  simp [Ideal.ofBits, Ideal.ieee, -EReal.coe_mul]; norm_num

/-- THE LAW. For a real in-degree, scaling a sum by the reciprocal of max(deg, 1) is dividing it by max(deg, 1):
    max(deg, 1) is a real number at least one, so not zero, and division by a non-zero real is the product with its
    reciprocal on every extended real; the reciprocal itself is 1 · (1 / max(deg, 1)). -/
theorem mean_law (s deg : EReal) (h : ∃ r : ℝ, deg = (r : EReal)) :
    s * Ideal.div one (max deg one) = Ideal.div s (max deg one) := by
  obtain ⟨r, rfl⟩ := h
  have hne : max r 1 ≠ 0 := (lt_of_lt_of_le one_pos (le_max_right r 1)).ne'
  have hmax : max (r : EReal) one = ((max r 1 : ℝ) : EReal) := by
    rw [show (one : EReal) = ((1 : ℝ) : EReal) from ofBits_one.trans EReal.coe_one.symm]
    rcases le_total r 1 with h | h
    · rw [max_eq_right h, max_eq_right (EReal.coe_le_coe_iff.mpr h)]
    · rw [max_eq_left h, max_eq_left (EReal.coe_le_coe_iff.mpr h)]
  have hone : (one : EReal) = 1 := ofBits_one
  rw [hmax, Ideal.div_coe hne, Ideal.div_coe hne, hone, one_mul]

section
variable {N Din Dout : ℕ}

/-- One layer at node `p`, output feature `q`. -/
def layerAt (mean root : (⟨2, ![N, Din]⟩ : Shape).Idx → EReal) (wl wr : (⟨2, ![Din, Dout]⟩ : Shape).Idx → EReal)
    (b : (⟨1, ![Dout]⟩ : Shape).Idx → EReal) (p : Fin N) (q : Fin Dout) : EReal :=
  max ((∑ k : Fin Din, mean (ix2 p k) * wl (ix2 k q)) + (∑ k : Fin Din, root (ix2 p k) * wr (ix2 k q)) + b (ix1 q)) zero

/-- One layer as a whole array. -/
def layer (mean root : (⟨2, ![N, Din]⟩ : Shape).Idx → EReal) (wl wr : (⟨2, ![Din, Dout]⟩ : Shape).Idx → EReal)
    (b : (⟨1, ![Dout]⟩ : Shape).Idx → EReal) : (⟨2, ![N, Dout]⟩ : Shape).Idx → EReal :=
  fun j => layerAt mean root wl wr b (j 0) (j 1)

theorem layer_apply (mean root : (⟨2, ![N, Din]⟩ : Shape).Idx → EReal) (wl wr : (⟨2, ![Din, Dout]⟩ : Shape).Idx → EReal)
    (b : (⟨1, ![Dout]⟩ : Shape).Idx → EReal) (p : Fin N) (q : Fin Dout) :
    layer mean root wl wr b (ix2 p q) = layerAt mean root wl wr b p q := rfl

/-- The final affine map at node `p`, output `q`. -/
def fcAt (h : (⟨2, ![N, Din]⟩ : Shape).Idx → EReal) (w : (⟨2, ![Din, Dout]⟩ : Shape).Idx → EReal)
    (b : (⟨1, ![Dout]⟩ : Shape).Idx → EReal) (p : Fin N) (q : Fin Dout) : EReal :=
  (∑ k : Fin Din, h (ix2 p k) * w (ix2 k q)) + b (ix1 q)

/-- The final affine map as a whole array. -/
def fc (h : (⟨2, ![N, Din]⟩ : Shape).Idx → EReal) (w : (⟨2, ![Din, Dout]⟩ : Shape).Idx → EReal)
    (b : (⟨1, ![Dout]⟩ : Shape).Idx → EReal) : (⟨2, ![N, Dout]⟩ : Shape).Idx → EReal :=
  fun j => fcAt h w b (j 0) (j 1)

theorem fc_apply (h : (⟨2, ![N, Din]⟩ : Shape).Idx → EReal) (w : (⟨2, ![Din, Dout]⟩ : Shape).Idx → EReal)
    (b : (⟨1, ![Dout]⟩ : Shape).Idx → EReal) (p : Fin N) (q : Fin Dout) :
    fc h w b (ix2 p q) = fcAt h w b p q := rfl

/-- The layer with the bias added before the root term: the same sum in another order. -/
theorem layerAt_bias_first (mean root : (⟨2, ![N, Din]⟩ : Shape).Idx → EReal)
    (wl wr : (⟨2, ![Din, Dout]⟩ : Shape).Idx → EReal) (b : (⟨1, ![Dout]⟩ : Shape).Idx → EReal) (p : Fin N) (q : Fin Dout) :
    max ((∑ k : Fin Din, mean (ix2 p k) * wl (ix2 k q)) + b (ix1 q) + (∑ k : Fin Din, root (ix2 p k) * wr (ix2 k q))) zero
      = layerAt mean root wl wr b p q := by
  unfold layerAt
  rw [add_right_comm]

end

end Cert.Sage

end
-- ==== Proof.Stage.lean ====
/-
  The idealized kernel's host-side arrays, one definition per array, and its three results as functions of the
  arguments.

  From the edge list (row 0 the sources, row 1 the destinations, a negative source wrapped by the node count):
    deg      the in-degree: ones scatter-added at the destinations into zeros
    inv      1 / max(deg, 1)
    agg f    the neighbour sum of a feature array f: its rows gathered at the sources, scatter-added at the destinations
    mean f   agg f scaled, row by row, by inv
  The weights are used transposed and each bias as a 1 × d row. Then
    h1     = layer (mean x) x Wl1ᵀ Wr1ᵀ bl1,
    emb    = layer (mean h1) h1 Wl2ᵀ Wr2ᵀ bl2,
    logits = fc emb Wfcᵀ bfc.
-/
import proofs.«177301_j84413287236240_1_alg».proof.Proof.Gen.KernelIdeal
import proofs.«177301_j84413287236240_1_alg».proof.Proof.Spec
import Idealize.ShloMosaic.Lib.ValueIdx

noncomputable section

namespace Cert.KernelIdeal.Stage

open Cert.KernelIdeal Cert.KernelIdeal.Gen Idealize.ShloMosaic Idealize.ShloMosaic.ValueIdx

section Generic
variable {F : FTy → Type} [FloatOps F]

/-- The sources (row 0 of the edge list). -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000
/-- The destinations (row 1 of the edge list). -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's start indices from the sources: a negative one wrapped by the node count, as a column. -/
def srcCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The scatter's indices from the destinations, as a column. -/
def dstCol (d : (⟨S800000, .i32⟩ : BufTy).Contents (Elt F)) : (⟨S800000x1, .i32⟩ : BufTy).Contents (Elt F) :=
  broadcastInDim S800000x1 ![0] bcast_S800000_S800000x1_0 d

/-- The in-degree: ones scatter-added at the destinations into zeros. -/
def deg (d : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32)) (dstCol d)
    (broadcastInDim S800000 ![] bcast_S_S800000 (constant S_ .f32 0x3F800000#32))
/-- The in-degree clamped below by one. -/
def clamped (d : (⟨S800000, .i32⟩ : BufTy).Contents (Elt F)) : (⟨S50000, .f32⟩ : BufTy).Contents (Elt F) :=
  maximumf (deg d) (broadcastInDim S50000 ![] bcast_S_S50000 (constant S_ .f32 0x3F800000#32))
/-- Its reciprocal. -/
def inv (d : (⟨S800000, .i32⟩ : BufTy).Contents (Elt F)) : (⟨S50000, .f32⟩ : BufTy).Contents (Elt F) :=
  Host.divf (broadcastInDim S50000 ![] bcast_S_S50000 (constant S_ .f32 0x3F800000#32)) (clamped d)

/-- The neighbour sum of 128 features. -/
def agg128 (f : (⟨S50000x128, .f32⟩ : BufTy).Contents (Elt F)) (s d : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstCol d)
    (Host.gather gather_S50000x128_S800000x1_S800000x128_1_0_n_n_0_1_1128 f (srcCol s))
/-- The neighbour sum of 64 features. -/
def agg64 (f : (⟨S50000x64, .f32⟩ : BufTy).Contents (Elt F)) (s d : (⟨S800000, .i32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (dstCol d)
    (Host.gather gather_S50000x64_S800000x1_S800000x64_1_0_n_n_0_1_164 f (srcCol s))

/-- A per-node factor repeated over 128 columns. -/
def spread128 (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)
/-- A per-node factor repeated over 64 columns. -/
def spread64 (v : (⟨S50000, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 v)

/-- The neighbour mean of 128 features, as the sum times a given per-node reciprocal. -/
def mean128 (f : (⟨S50000x128, .f32⟩ : BufTy).Contents (Elt F)) (s d : (⟨S800000, .i32⟩ : BufTy).Contents (Elt F)) (iv : (⟨S50000, .f32⟩ : BufTy).Contents (Elt F)) : (⟨S50000x128, .f32⟩ : BufTy).Contents (Elt F) :=
  mulf (agg128 f s d) (spread128 iv)
/-- The neighbour mean of 64 features, as the sum times a given per-node reciprocal. -/
def mean64 (f : (⟨S50000x64, .f32⟩ : BufTy).Contents (Elt F)) (s d : (⟨S800000, .i32⟩ : BufTy).Contents (Elt F)) (iv : (⟨S50000, .f32⟩ : BufTy).Contents (Elt F)) : (⟨S50000x64, .f32⟩ : BufTy).Contents (Elt F) :=
  mulf (agg64 f s d) (spread64 iv)

/-- The weights, transposed. -/
def wT1 (w : (⟨S64x128, .f32⟩ : BufTy).Contents (Elt F)) : (⟨S128x64, .f32⟩ : BufTy).Contents (Elt F) := transpose S128x64 [1, 0] w transposes_S64x128_S128x64_1_0
def wT2 (w : (⟨S32x64, .f32⟩ : BufTy).Contents (Elt F)) : (⟨S64x32, .f32⟩ : BufTy).Contents (Elt F) := transpose S64x32 [1, 0] w transposes_S32x64_S64x32_1_0
def wT3 (w : (⟨S40x32, .f32⟩ : BufTy).Contents (Elt F)) : (⟨S32x40, .f32⟩ : BufTy).Contents (Elt F) := transpose S32x40 [1, 0] w transposes_S40x32_S32x40_1_0
/-- The biases, as rows. -/
def row64 (b : (⟨S64, .f32⟩ : BufTy).Contents (Elt F)) : (⟨S1x64, .f32⟩ : BufTy).Contents (Elt F) := shapeCast _ b shapeCasts_S64_S1x64
def row32 (b : (⟨S32, .f32⟩ : BufTy).Contents (Elt F)) : (⟨S1x32, .f32⟩ : BufTy).Contents (Elt F) := shapeCast _ b shapeCasts_S32_S1x32
def row40 (b : (⟨S40, .f32⟩ : BufTy).Contents (Elt F)) : (⟨S1x40, .f32⟩ : BufTy).Contents (Elt F) := shapeCast _ b shapeCasts_S40_S1x40

end Generic

/-- A bias kept as a 1 × d row, read as a length-d vector. -/
abbrev rowVec {d : ℕ} (b : (⟨2, ![1, d]⟩ : Shape).Idx → EReal) : (⟨1, ![d]⟩ : Shape).Idx → EReal :=
  fun j => b (ix2 (0 : Fin 1) (j 0))

section Results
variable (x : S50000x128.Idx → EReal) (e : S2x800000.Idx → BitVec 32)
  (wl1 : S64x128.Idx → EReal) (bl1 : S64.Idx → EReal) (wr1 : S64x128.Idx → EReal)
  (wl2 : S32x64.Idx → EReal) (bl2 : S32.Idx → EReal) (wr2 : S32x64.Idx → EReal)
  (wfc : S40x32.Idx → EReal) (bfc : S40.Idx → EReal)

/-- The first layer's output. -/
def h1 : S50000x64.Idx → EReal :=
  Cert.Sage.layer (N := 50000) (Din := 128) (Dout := 64)
    (mean128 (F := Ideal) x (src (F := Ideal) e) (dst (F := Ideal) e) (inv (F := Ideal) (dst (F := Ideal) e))) x
    (wT1 (F := Ideal) wl1) (wT1 (F := Ideal) wr1) (rowVec (row64 (F := Ideal) bl1))

/-- The second layer's output: the embedding. -/
def emb : S50000x32.Idx → EReal :=
  Cert.Sage.layer (N := 50000) (Din := 64) (Dout := 32)
    (mean64 (F := Ideal) (h1 x e wl1 bl1 wr1) (src (F := Ideal) e) (dst (F := Ideal) e) (inv (F := Ideal) (dst (F := Ideal) e)))
    (h1 x e wl1 bl1 wr1) (wT2 (F := Ideal) wl2) (wT2 (F := Ideal) wr2) (rowVec (row32 (F := Ideal) bl2))

/-- The affine output on the embedding. -/
def logits : S50000x40.Idx → EReal :=
  Cert.Sage.fc (N := 50000) (Din := 32) (Dout := 40) (emb x e wl1 bl1 wr1 wl2 bl2 wr2)
    (wT3 (F := Ideal) wfc) (rowVec (row40 (F := Ideal) bfc))

end Results

end Cert.KernelIdeal.Stage

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.Pay.lean ====
/-
  The three stored values of the two kernel bodies, read at an entry, on the extended reals.

  Layer body (both kernels): the stored block at (p, q) is
    max (Σₖ mean(p,k)·Wl(k,q) + Σₖ root(p,k)·Wr(k,q) + b(0,q)) 0
  — each matrix product runs into a zero accumulator, so it is the plain sum; narrowing the operands to a shorter
  float format changes nothing on the extended reals; the bias row is repeated over the rows.
  Output body of the second kernel: Σₖ h(p,k)·Wfc(k,q) + bfc(0,q), with h the block the same body stored just before.
-/
import proofs.«177301_j84413287236240_1_alg».proof.Proof.Gen.KernelIdeal.Skeleton
import proofs.«177301_j84413287236240_1_alg».proof.Proof.Spec
import proofs.«177301_j84413287236240_1_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.Pay

open Cert.KernelIdeal Cert.KernelIdeal.Gen Idealize.ShloMosaic Idealize.ShloMosaic.ValueIdx

/-- The first kernel's stored block at (p, q). -/
theorem pay0_apply (x0 x1 : Vec Ideal S5000x128 .f32) (x2 x3 : Vec Ideal S128x64 .f32) (x4 : Vec Ideal S1x64 .f32)
    (p : Fin 5000) (q : Fin 64) :
    k0_pay1 (F := Ideal) x0 x1 x2 x3 x4 (ix2 p q)
      = max ((∑ k : Fin 128, x0 (ix2 p k) * x2 (ix2 k q)) + (∑ k : Fin 128, x1 (ix2 p k) * x3 (ix2 k q))
          + x4 (ix2 (0 : Fin 1) q)) Cert.Sage.zero := by
  unfold k0_pay1
  simp only [shapeCast_self]
  rw [maximumf_apply, addf_apply, addf_apply, broadcast_apply]
  refine congrArg₂ max (congrArg₂ (· + ·) (congrArg₂ (· + ·) ?_ ?_) ?_) rfl
  · exact Cert.LibPlainDot.matmul_zero_apply (R := 5000) (K := 128) (C := 64)
      dot_S5000x128_S128x64_S5000x64_1_0_0_1_n_n.wf none _ _ p q
  · exact Cert.LibPlainDot.matmul_zero_apply (R := 5000) (K := 128) (C := 64)
      dot_S5000x128_S128x64_S5000x64_1_0_0_1_n_n.wf none _ _ p q
  · exact broadcastTo_1b_ab_apply x4 _ p q

/-- The second kernel's first stored block (the layer) at (p, q). -/
theorem pay1_apply (x0 x1 : Vec Ideal S5000x64 .f32) (x2 x3 : Vec Ideal S64x32 .f32) (x4 : Vec Ideal S1x32 .f32)
    (p : Fin 5000) (q : Fin 32) :
    k1_pay1 (F := Ideal) x0 x1 x2 x3 x4 (ix2 p q)
      = max ((∑ k : Fin 64, x0 (ix2 p k) * x2 (ix2 k q)) + (∑ k : Fin 64, x1 (ix2 p k) * x3 (ix2 k q))
          + x4 (ix2 (0 : Fin 1) q)) Cert.Sage.zero := by
  unfold k1_pay1
  simp only [shapeCast_self]
  rw [maximumf_apply, addf_apply, addf_apply, broadcast_apply]
  refine congrArg₂ max (congrArg₂ (· + ·) (congrArg₂ (· + ·) ?_ ?_) ?_) rfl
  · exact Cert.LibPlainDot.matmul_zero_apply (R := 5000) (K := 64) (C := 32)
      dot_S5000x64_S64x32_S5000x32_1_0_0_1_n_n.wf none _ _ p q
  · exact Cert.LibPlainDot.matmul_zero_apply (R := 5000) (K := 64) (C := 32)
      dot_S5000x64_S64x32_S5000x32_1_0_0_1_n_n.wf none _ _ p q
  · exact broadcastTo_1b_ab_apply x4 _ p q

/-- The second kernel's second stored block (the affine output) at (p, q), over the layer block it stored first. -/
theorem pay2_apply (x0 x1 : Vec Ideal S5000x64 .f32) (x2 x3 : Vec Ideal S64x32 .f32) (x4 : Vec Ideal S1x32 .f32)
    (x5 : Vec Ideal S32x40 .f32) (x6 : Vec Ideal S1x40 .f32) (p : Fin 5000) (q : Fin 40) :
    k1_pay2 (F := Ideal) x0 x1 x2 x3 x4 x5 x6 (ix2 p q)
      = (∑ k : Fin 32, k1_pay1 (F := Ideal) x0 x1 x2 x3 x4 (ix2 p k) * x5 (ix2 k q)) + x6 (ix2 (0 : Fin 1) q) := by
  unfold k1_pay2
  simp only [shapeCast_self]
  rw [addf_apply]
  refine congrArg₂ (· + ·) ?_ ?_
  · exact Cert.LibPlainDot.matmul_zero_apply (R := 5000) (K := 32) (C := 40)
      dot_S5000x32_S32x40_S5000x40_1_0_0_1_n_n.wf none _ _ p q
  · exact broadcastTo_1b_ab_apply x6 _ p q

end Cert.KernelIdeal.Pay

end
-- ==== Proof.Region0.lean ====
/-
  What the first kernel region leaves in its output array.

  The grid has ten points; point t stages rows 5000·t … 5000·t + 4999 of the two feature arrays (the neighbour means
  and the nodes' own features) and the whole of the two weight matrices and the bias row, and writes back rows
  5000·t … 5000·t + 4999 of the output. The body's stored block at (p, q) is the layer's value at node 5000·t + p
  (the payload read at an entry), so every written-back block is the corresponding block of ONE whole-array function,
  the layer of the staged arrays; the ten blocks cover the 50000 rows, so the array ends holding that function.
-/
import proofs.«177301_j84413287236240_1_alg».proof.Proof.Gen.KernelIdeal.Frame
import proofs.«177301_j84413287236240_1_alg».proof.Proof.Pay
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- A bias kept as a 1 × d row, read as a length-d vector. -/
abbrev rowVec {d : ℕ} (b : (⟨2, ![1, d]⟩ : Shape).Idx → EReal) : (⟨1, ![d]⟩ : Shape).Idx → EReal :=
  fun j => b (ix2 (0 : Fin 1) (j 0))

/-- The stored block of point `T` is block `T` of the layer of the whole arrays: if the staged feature blocks are rows
    5000·T + p of the arrays and the staged weights and bias are the whole arrays, the payload at `y` is the layer at
    the array index `i` that `y` sits at. -/
theorem block_core (A0 A1 : S50000x128.Idx → EReal) (A2 A3 : S128x64.Idx → EReal) (A4 : S1x64.Idx → EReal)
    (x0 x1 : Vec Ideal S5000x128 .f32) (x2 x3 : Vec Ideal S128x64 .f32) (x4 : Vec Ideal S1x64 .f32) (T : ℕ) (hT : T ≤ 9)
    (h0 : ∀ (p : Fin 5000) (k : Fin 128), x0 (ix2 p k) = A0 (ix2 (⟨T * 5000 + p.val, by omega⟩ : Fin 50000) k))
    (h1 : ∀ (p : Fin 5000) (k : Fin 128), x1 (ix2 p k) = A1 (ix2 (⟨T * 5000 + p.val, by omega⟩ : Fin 50000) k))
    (h2 : x2 = A2) (h3 : x3 = A3) (h4 : x4 = A4)
    (y : S5000x64.Idx) (i : S50000x64.Idx) (hi0 : (i 0).val = T * 5000 + (y 0).val) (hi1 : (i 1).val = (y 1).val) :
    k0_pay1 (F := Ideal) x0 x1 x2 x3 x4 y
      = Cert.Sage.layer (N := 50000) (Din := 128) (Dout := 64) A0 A1 A2 A3 (rowVec A4) i := by
  obtain ⟨p, q, rfl⟩ : ∃ (p : Fin 5000) (q : Fin 64), y = ix2 p q := ⟨y 0, y 1, eq_ix2 y⟩
  have hb : T * 5000 + p.val < 50000 := by have := p.isLt; omega
  obtain ⟨r, s, rfl⟩ : ∃ (r : Fin 50000) (s : Fin 64), i = ix2 r s := ⟨i 0, i 1, eq_ix2 i⟩
  have hr : r = (⟨T * 5000 + p.val, hb⟩ : Fin 50000) := Fin.ext hi0
  have hs : s = q := Fin.ext hi1
  clear hi0 hi1
  subst hr hs h2 h3 h4
  rw [Pay.pay0_apply, Cert.Sage.layer_apply]
  unfold Cert.Sage.layerAt
  simp only [h0, h1]

variable (V : (c : Dev nD) → (b : Ref sig .tc) → Buf (Elt Ideal) ((c : Thread nD τ).loc b))

theorem hz : (![0, 0] : Fin 2 → Nat) = fun _ => 0 := funext fun a => by fin_cases a <;> rfl

/-- What the region's output array ends holding: the layer of the arrays the region finds. -/
def out (c : Dev nD) : S50000x64.Idx → EReal :=
  Cert.Sage.layer (N := 50000) (Din := 128) (Dout := 64) (V c main_v24) (V c main_arg0) (V c main_v25) (V c main_v26)
    (rowVec (V c main_v27))

/-- The printed index maps over the grid: the two feature windows move with the output window along the rows, the
    weights and the bias stay at block 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block is some point's. -/
theorem idx_onto : ∀ (q0 : Fin 10), ∃ t : Fin cfg0.N, win0_5.index t = ![q0.val, 0] :=
  (by decide +kernel : ∀ (q0 : Fin 10), ∃ t : Fin grid0.N, win0_5.index t = ![q0.val, 0])

/-- What point `t` writes back is block `t` of the layer of the arrays as the region finds them. -/
theorem flushed_eq (c : Dev nD) (t : Fin cfg0.N) :
    (dat0 (F := Ideal) V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e5b, e51⟩ := idx_facts t
  funext j
  show k0_pay1 (F := Ideal) (iblk0 V c 0 t) (iblk0 V c 1 t) (iblk0 V c 2 t) (iblk0 V c 3 t) (iblk0 V c 4 t) j
      = out V c (((cfg0.win 5).blk t).view.emb j)
  refine block_core (V c main_v24) (V c main_arg0) (V c main_v25) (V c main_v26) (V c main_v27)
    (iblk0 V c 0 t) (iblk0 V c 1 t) (iblk0 V c 2 t) (iblk0 V c 3 t) (iblk0 V c 4 t) (win0_5.index t (0 : Fin 2)) e5b
    ?_ ?_ ?_ ?_ ?_ j (((cfg0.win 5).blk t).view.emb j) ?_ ?_
  · intro p k
    show V c main_v24 (((cfg0.win 0).blk t).view.emb (ix2 p k)) = _
    refine congrArg _ (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  · intro p k
    show V c main_arg0 (((cfg0.win 1).blk t).view.emb (ix2 p k)) = _
    refine congrArg _ (funext fun a => Fin.ext ?_)
    match a with
    | ⟨0, _⟩ => show win0_1.index t (0 : Fin 2) * 5000 + 1 * p.val = win0_5.index t (0 : Fin 2) * 5000 + p.val; omega
    | ⟨1, _⟩ => show win0_1.index t (1 : Fin 2) * 128 + 1 * k.val = k.val; omega
  · funext y
    show V c main_v25 (((cfg0.win 2).blk t).view.emb y) = V c main_v25 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 64 + 1 * (y 1).val = (y 1).val; omega
  · funext y
    show V c main_v26 (((cfg0.win 3).blk t).view.emb y) = V c main_v26 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 64 + 1 * (y 1).val = (y 1).val; omega
  · funext y
    show V c main_v27 (((cfg0.win 4).blk t).view.emb y) = V c main_v27 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  · show win0_5.index t (0 : Fin 2) * 5000 + 1 * (j 0).val = win0_5.index t (0 : Fin 2) * 5000 + (j 0).val; omega
  · show win0_5.index t (1 : Fin 2) * 64 + 1 * (j 1).val = (j 1).val; omega

/-- An index of the output array is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- Every index of the output array is in the block of the point that owns its row block. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE OUTPUT ARRAY after the region: the layer of the arrays the region finds. -/
theorem final (c : Dev nD) : (dat0 (F := Ideal) V c).arrAt 5 cfg0.N = out V c :=
  (dat0 (F := Ideal) V c).arrAt_eq_of_cover 5 (out V c) (fun t _ => flushed_eq V c t) cover

end Cert.KernelIdeal.Region0

end
-- ==== Proof.Region1.lean ====
/-
  What the second kernel region leaves in its two output arrays.

  As in the first region the grid has ten points and point t works on rows 5000·t … 5000·t + 4999. The body stores the
  layer's block into the first output and, from that same block, the affine output's block into the second. So the
  first output array ends holding the layer of the staged arrays, and the second the affine map of that layer: every
  written-back block is the corresponding block of one whole-array function, and the ten blocks cover each array.
-/
import proofs.«177301_j84413287236240_1_alg».proof.Proof.Gen.KernelIdeal.Frame
import proofs.«177301_j84413287236240_1_alg».proof.Proof.Pay
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- A bias kept as a 1 × d row, read as a length-d vector. -/
abbrev rowVec {d : ℕ} (b : (⟨2, ![1, d]⟩ : Shape).Idx → EReal) : (⟨1, ![d]⟩ : Shape).Idx → EReal :=
  fun j => b (ix2 (0 : Fin 1) (j 0))

/-- The layer block of point `T` is block `T` of the layer of the whole arrays. -/
theorem layer_core (A0 A1 : S50000x64.Idx → EReal) (A2 A3 : S64x32.Idx → EReal) (A4 : S1x32.Idx → EReal)
    (x0 x1 : Vec Ideal S5000x64 .f32) (x2 x3 : Vec Ideal S64x32 .f32) (x4 : Vec Ideal S1x32 .f32) (T : ℕ) (hT : T ≤ 9)
    (h0 : ∀ (p : Fin 5000) (k : Fin 64), x0 (ix2 p k) = A0 (ix2 (⟨T * 5000 + p.val, by omega⟩ : Fin 50000) k))
    (h1 : ∀ (p : Fin 5000) (k : Fin 64), x1 (ix2 p k) = A1 (ix2 (⟨T * 5000 + p.val, by omega⟩ : Fin 50000) k))
    (h2 : x2 = A2) (h3 : x3 = A3) (h4 : x4 = A4)
    (y : S5000x32.Idx) (i : S50000x32.Idx) (hi0 : (i 0).val = T * 5000 + (y 0).val) (hi1 : (i 1).val = (y 1).val) :
    k1_pay1 (F := Ideal) x0 x1 x2 x3 x4 y
      = Cert.Sage.layer (N := 50000) (Din := 64) (Dout := 32) A0 A1 A2 A3 (rowVec A4) i := by
  obtain ⟨p, q, rfl⟩ : ∃ (p : Fin 5000) (q : Fin 32), y = ix2 p q := ⟨y 0, y 1, eq_ix2 y⟩
  have hb : T * 5000 + p.val < 50000 := by have := p.isLt; omega
  obtain ⟨r, s, rfl⟩ : ∃ (r : Fin 50000) (s : Fin 32), i = ix2 r s := ⟨i 0, i 1, eq_ix2 i⟩
  have hr : r = (⟨T * 5000 + p.val, hb⟩ : Fin 50000) := Fin.ext hi0
  have hs : s = q := Fin.ext hi1
  clear hi0 hi1
  subst hr hs h2 h3 h4
  rw [Pay.pay1_apply, Cert.Sage.layer_apply]
  unfold Cert.Sage.layerAt
  simp only [h0, h1]

/-- The affine block of point `T` is block `T` of the affine map of the layer of the whole arrays. -/
theorem affine_core (A0 A1 : S50000x64.Idx → EReal) (A2 A3 : S64x32.Idx → EReal) (A4 : S1x32.Idx → EReal)
    (A5 : S32x40.Idx → EReal) (A6 : S1x40.Idx → EReal)
    (x0 x1 : Vec Ideal S5000x64 .f32) (x2 x3 : Vec Ideal S64x32 .f32) (x4 : Vec Ideal S1x32 .f32)
    (x5 : Vec Ideal S32x40 .f32) (x6 : Vec Ideal S1x40 .f32) (T : ℕ) (hT : T ≤ 9)
    (h0 : ∀ (p : Fin 5000) (k : Fin 64), x0 (ix2 p k) = A0 (ix2 (⟨T * 5000 + p.val, by omega⟩ : Fin 50000) k))
    (h1 : ∀ (p : Fin 5000) (k : Fin 64), x1 (ix2 p k) = A1 (ix2 (⟨T * 5000 + p.val, by omega⟩ : Fin 50000) k))
    (h2 : x2 = A2) (h3 : x3 = A3) (h4 : x4 = A4) (h5 : x5 = A5) (h6 : x6 = A6)
    (y : S5000x40.Idx) (i : S50000x40.Idx) (hi0 : (i 0).val = T * 5000 + (y 0).val) (hi1 : (i 1).val = (y 1).val) :
    k1_pay2 (F := Ideal) x0 x1 x2 x3 x4 x5 x6 y
      = Cert.Sage.fc (N := 50000) (Din := 32) (Dout := 40)
          (Cert.Sage.layer (N := 50000) (Din := 64) (Dout := 32) A0 A1 A2 A3 (rowVec A4)) A5 (rowVec A6) i := by
  obtain ⟨p, q, rfl⟩ : ∃ (p : Fin 5000) (q : Fin 40), y = ix2 p q := ⟨y 0, y 1, eq_ix2 y⟩
  have hb : T * 5000 + p.val < 50000 := by have := p.isLt; omega
  obtain ⟨r, s, rfl⟩ : ∃ (r : Fin 50000) (s : Fin 40), i = ix2 r s := ⟨i 0, i 1, eq_ix2 i⟩
  have hr : r = (⟨T * 5000 + p.val, hb⟩ : Fin 50000) := Fin.ext hi0
  have hs : s = q := Fin.ext hi1
  clear hi0 hi1
  subst hr hs h5 h6
  rw [Pay.pay2_apply, Cert.Sage.fc_apply]
  unfold Cert.Sage.fcAt
  refine congrArg₂ (· + ·) (Finset.sum_congr rfl fun k _ => congrArg (· * x5 (ix2 k s)) ?_) rfl
  exact layer_core A0 A1 A2 A3 A4 x0 x1 x2 x3 x4 T hT h0 h1 h2 h3 h4 (ix2 p k)
    (ix2 (⟨T * 5000 + p.val, hb⟩ : Fin 50000) k) rfl rfl

variable (V : (c : Dev nD) → (b : Ref sig .tc) → Buf (Elt Ideal) ((c : Thread nD τ).loc b))

theorem hz : (![0, 0] : Fin 2 → Nat) = fun _ => 0 := funext fun a => by fin_cases a <;> rfl

/-- What the first output array ends holding: the layer of the arrays the region finds. -/
def outL (c : Dev nD) : S50000x32.Idx → EReal :=
  Cert.Sage.layer (N := 50000) (Din := 64) (Dout := 32) (V c main_v41) (V c main_v28) (V c main_v42) (V c main_v43)
    (rowVec (V c main_v45))

/-- What the second output array ends holding: the affine map of that layer. -/
def outA (c : Dev nD) : S50000x40.Idx → EReal :=
  Cert.Sage.fc (N := 50000) (Din := 32) (Dout := 40) (outL V c) (V c main_v44) (rowVec (V c main_v46))

/-- The printed index maps over the grid: the two feature windows and the two output windows move together along the
    rows; the weights and the biases stay at block 0. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 9 ∧ win1_7.index t (1 : Fin 2) = 0
    ∧ win1_8.index t (0 : Fin 2) = win1_7.index t (0 : Fin 2) ∧ win1_8.index t (1 : Fin 2) = 0 :=
  (by decide +kernel : ∀ t : Fin grid1.N, _)

/-- Every row block of the first output is some point's. -/
theorem idx_ontoL : ∀ (q0 : Fin 10), ∃ t : Fin cfg1.N, win1_7.index t = ![q0.val, 0] :=
  (by decide +kernel : ∀ (q0 : Fin 10), ∃ t : Fin grid1.N, win1_7.index t = ![q0.val, 0])
/-- Every row block of the second output is some point's. -/
theorem idx_ontoA : ∀ (q0 : Fin 10), ∃ t : Fin cfg1.N, win1_8.index t = ![q0.val, 0] :=
  (by decide +kernel : ∀ (q0 : Fin 10), ∃ t : Fin grid1.N, win1_8.index t = ![q0.val, 0])

/-- What point `t` writes back to the first output is block `t` of the layer. -/
theorem flushedL_eq (c : Dev nD) (t : Fin cfg1.N) :
    (dat1 (F := Ideal) V c).flushed 7 t = ((cfg1.win 7).blk t).view.read (Elt Ideal) (outL V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x32) hz, View.ld_unit_zero (S := S1x32) hz]
  obtain ⟨e00, e01, e10, e11, e20, e21, e30, e31, e40, e41, e50, e51, e60, e61, e7b, e71, e80, e81⟩ := idx_facts t
  funext j
  show k1_pay1 (F := Ideal) (iblk1 V c 0 t) (iblk1 V c 1 t) (iblk1 V c 2 t) (iblk1 V c 3 t) (iblk1 V c 4 t) j
      = outL V c (((cfg1.win 7).blk t).view.emb j)
  refine layer_core (V c main_v41) (V c main_v28) (V c main_v42) (V c main_v43) (V c main_v45)
    (iblk1 V c 0 t) (iblk1 V c 1 t) (iblk1 V c 2 t) (iblk1 V c 3 t) (iblk1 V c 4 t) (win1_7.index t (0 : Fin 2)) e7b
    ?_ ?_ ?_ ?_ ?_ j (((cfg1.win 7).blk t).view.emb j) ?_ ?_
  · intro p k
    show V c main_v41 (((cfg1.win 0).blk t).view.emb (ix2 p k)) = _
    refine congrArg _ (funext fun a => Fin.ext ?_)
    match a with
    | ⟨0, _⟩ => show win1_0.index t (0 : Fin 2) * 5000 + 1 * p.val = win1_7.index t (0 : Fin 2) * 5000 + p.val; omega
    | ⟨1, _⟩ => show win1_0.index t (1 : Fin 2) * 64 + 1 * k.val = k.val; omega
  · intro p k
    show V c main_v28 (((cfg1.win 1).blk t).view.emb (ix2 p k)) = _
    refine congrArg _ (funext fun a => Fin.ext ?_)
    match a with
    | ⟨0, _⟩ => show win1_1.index t (0 : Fin 2) * 5000 + 1 * p.val = win1_7.index t (0 : Fin 2) * 5000 + p.val; omega
    | ⟨1, _⟩ => show win1_1.index t (1 : Fin 2) * 64 + 1 * k.val = k.val; omega
  · funext y
    show V c main_v42 (((cfg1.win 2).blk t).view.emb y) = V c main_v42 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 32 + 1 * (y 1).val = (y 1).val; omega
  · funext y
    show V c main_v43 (((cfg1.win 3).blk t).view.emb y) = V c main_v43 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 32 + 1 * (y 1).val = (y 1).val; omega
  · funext y
    show V c main_v45 (((cfg1.win 4).blk t).view.emb y) = V c main_v45 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 32 + 1 * (y 1).val = (y 1).val; omega
  · show win1_7.index t (0 : Fin 2) * 5000 + 1 * (j 0).val = win1_7.index t (0 : Fin 2) * 5000 + (j 0).val; omega
  · show win1_7.index t (1 : Fin 2) * 32 + 1 * (j 1).val = (j 1).val; omega

/-- What point `t` writes back to the second output is block `t` of the affine map of the layer. -/
theorem flushedA_eq (c : Dev nD) (t : Fin cfg1.N) :
    (dat1 (F := Ideal) V c).flushed 8 t = ((cfg1.win 8).blk t).view.read (Elt Ideal) (outA V c) := by
  show (cfg1.win 8).cut (grid1.coords t) ((dat1 V c).after 8 t) = _
  rw [after1_8]
  unfold out1_8
  rw [View.canon_unit_zero hz]
  simp only [View.ld_unit_zero (S := S5000x64) hz, View.ld_unit_zero (S := S64x32) hz, View.ld_unit_zero (S := S1x32) hz,
    View.ld_unit_zero (S := S32x40) hz, View.ld_unit_zero (S := S1x40) hz]
  obtain ⟨e00, e01, e10, e11, e20, e21, e30, e31, e40, e41, e50, e51, e60, e61, e7b, e71, e80, e81⟩ := idx_facts t
  have e8b : win1_8.index t (0 : Fin 2) ≤ 9 := by omega
  funext j
  show k1_pay2 (F := Ideal) (iblk1 V c 0 t) (iblk1 V c 1 t) (iblk1 V c 2 t) (iblk1 V c 3 t) (iblk1 V c 4 t)
        (iblk1 V c 5 t) (iblk1 V c 6 t) j
      = outA V c (((cfg1.win 8).blk t).view.emb j)
  refine affine_core (V c main_v41) (V c main_v28) (V c main_v42) (V c main_v43) (V c main_v45) (V c main_v44) (V c main_v46)
    (iblk1 V c 0 t) (iblk1 V c 1 t) (iblk1 V c 2 t) (iblk1 V c 3 t) (iblk1 V c 4 t) (iblk1 V c 5 t) (iblk1 V c 6 t)
    (win1_8.index t (0 : Fin 2)) e8b ?_ ?_ ?_ ?_ ?_ ?_ ?_ j (((cfg1.win 8).blk t).view.emb j) ?_ ?_
  · intro p k
    show V c main_v41 (((cfg1.win 0).blk t).view.emb (ix2 p k)) = _
    refine congrArg _ (funext fun a => Fin.ext ?_)
    match a with
    | ⟨0, _⟩ => show win1_0.index t (0 : Fin 2) * 5000 + 1 * p.val = win1_8.index t (0 : Fin 2) * 5000 + p.val; omega
    | ⟨1, _⟩ => show win1_0.index t (1 : Fin 2) * 64 + 1 * k.val = k.val; omega
  · intro p k
    show V c main_v28 (((cfg1.win 1).blk t).view.emb (ix2 p k)) = _
    refine congrArg _ (funext fun a => Fin.ext ?_)
    match a with
    | ⟨0, _⟩ => show win1_1.index t (0 : Fin 2) * 5000 + 1 * p.val = win1_8.index t (0 : Fin 2) * 5000 + p.val; omega
    | ⟨1, _⟩ => show win1_1.index t (1 : Fin 2) * 64 + 1 * k.val = k.val; omega
  · funext y
    show V c main_v42 (((cfg1.win 2).blk t).view.emb y) = V c main_v42 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 32 + 1 * (y 1).val = (y 1).val; omega
  · funext y
    show V c main_v43 (((cfg1.win 3).blk t).view.emb y) = V c main_v43 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 32 + 1 * (y 1).val = (y 1).val; omega
  · funext y
    show V c main_v45 (((cfg1.win 4).blk t).view.emb y) = V c main_v45 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 32 + 1 * (y 1).val = (y 1).val; omega
  · funext y
    show V c main_v44 (((cfg1.win 5).blk t).view.emb y) = V c main_v44 y
    refine congrArg _ (funext fun a => Fin.ext ?_)
    match a with
    | ⟨0, _⟩ => show win1_5.index t (0 : Fin 2) * 32 + 1 * (y 0).val = (y 0).val; omega
    | ⟨1, _⟩ => show win1_5.index t (1 : Fin 2) * 40 + 1 * (y 1).val = (y 1).val; omega
  · funext y
    show V c main_v46 (((cfg1.win 6).blk t).view.emb y) = V c main_v46 y
    refine congrArg _ (funext fun a => Fin.ext ?_)
    match a with
    | ⟨0, _⟩ => show win1_6.index t (0 : Fin 2) * 1 + 1 * (y 0).val = (y 0).val; omega
    | ⟨1, _⟩ => show win1_6.index t (1 : Fin 2) * 40 + 1 * (y 1).val = (y 1).val; omega
  · show win1_8.index t (0 : Fin 2) * 5000 + 1 * (j 0).val = win1_8.index t (0 : Fin 2) * 5000 + (j 0).val; omega
  · show win1_8.index t (1 : Fin 2) * 40 + 1 * (j 1).val = (j 1).val; omega

/-- An index of output array 7 is in point `t`'s block iff each coordinate is in the block's range on its axis. -/
theorem mem_blkL (t : Fin cfg1.N) (i : S50000x32.Idx) :
    i ∈ ((cfg1.win 7).blk t).view.set ↔ ∀ a : Fin 2, win1_7.index t a * S5000x32.size a ≤ (i a).val ∧ (i a).val < win1_7.index t a * S5000x32.size a + S5000x32.size a := by
  show i ∈ ((View.whole main_v47_0).slice (win1_7.rect t)).set ↔ _
  rw [View.set_slice_whole, Rect.mem_set_unit]
  exact Iff.rfl

/-- Every index of output array 7 is in the block of the point that owns its row block. -/
theorem coverL (i : S50000x32.Idx) : ∃ t : Fin cfg1.N, (cfg1.win 7).flush t = true ∧ i ∈ ((cfg1.win 7).blk t).view.set := by
  have hi0 : (i 0).val < 50000 := (i 0).isLt
  have hi1 : (i 1).val < 32 := (i 1).isLt
  obtain ⟨t, ht⟩ := idx_ontoL ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blkL]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 32 ≤ (i 1).val ∧ (i 1).val < win1_7.index t (1 : Fin 2) * 32 + 32; omega

/-- An index of output array 8 is in point `t`'s block iff each coordinate is in the block's range on its axis. -/
theorem mem_blkA (t : Fin cfg1.N) (i : S50000x40.Idx) :
    i ∈ ((cfg1.win 8).blk t).view.set ↔ ∀ a : Fin 2, win1_8.index t a * S5000x40.size a ≤ (i a).val ∧ (i a).val < win1_8.index t a * S5000x40.size a + S5000x40.size a := by
  show i ∈ ((View.whole main_v47_1).slice (win1_8.rect t)).set ↔ _
  rw [View.set_slice_whole, Rect.mem_set_unit]
  exact Iff.rfl

/-- Every index of output array 8 is in the block of the point that owns its row block. -/
theorem coverA (i : S50000x40.Idx) : ∃ t : Fin cfg1.N, (cfg1.win 8).flush t = true ∧ i ∈ ((cfg1.win 8).blk t).view.set := by
  have hi0 : (i 0).val < 50000 := (i 0).isLt
  have hi1 : (i 1).val < 40 := (i 1).isLt
  obtain ⟨t, ht⟩ := idx_ontoA ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_blkA]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 40 ≤ (i 1).val ∧ (i 1).val < win1_8.index t (1 : Fin 2) * 40 + 40; omega

/-- THE FIRST OUTPUT ARRAY after the region: the layer of the arrays the region finds. -/
theorem finalL (c : Dev nD) : (dat1 (F := Ideal) V c).arrAt 7 cfg1.N = outL V c :=
  (dat1 (F := Ideal) V c).arrAt_eq_of_cover 7 (outL V c) (fun t _ => flushedL_eq V c t) coverL

/-- THE SECOND OUTPUT ARRAY after the region: the affine map of that layer. -/
theorem finalA (c : Dev nD) : (dat1 (F := Ideal) V c).arrAt 8 cfg1.N = outA V c :=
  (dat1 (F := Ideal) V c).arrAt_eq_of_cover 8 (outA V c) (fun t _ => flushedA_eq V c t) coverA

end Cert.KernelIdeal.Region1

end
-- ==== Proof.HostA.lean ====
/-
  The arrays the first kernel region finds in its windows.

  The first stretch of host operations computes, from the arguments, the neighbour mean of the input features, the two
  transposed weight matrices and the bias as a row; the nodes' own features are the argument itself.
-/
import proofs.«177301_j84413287236240_1_alg».proof.Proof.Gen.KernelIdeal.Frame
import proofs.«177301_j84413287236240_1_alg».proof.Proof.Stage
import Idealize.ShloMosaic.Lib.StableHlo.Run

set_option maxRecDepth 16384

noncomputable section

namespace Cert.KernelIdeal.HostA

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

set_option maxHeartbeats 4000000 in
/-- Window 0's array: the neighbour mean of the input features. -/
theorem mean_in (c : Dev nD) : StableHlo.after (hostOps0 (F := Ideal)) (W0 m ρ c) (Proc.devRef .tc main_v24)
    = Stage.mean128 (F := Ideal) (m ((c.tc : Thread nD τ).loc main_arg0)) (Stage.src (F := Ideal) (m ((c.tc : Thread nD τ).loc main_arg1))) (Stage.dst (F := Ideal) (m ((c.tc : Thread nD τ).loc main_arg1))) (Stage.inv (F := Ideal) (Stage.dst (F := Ideal) (m ((c.tc : Thread nD τ).loc main_arg1)))) := by
  after_results
  all_goals rfl

set_option maxHeartbeats 4000000 in
/-- Window 1's array: the input features. -/
theorem root_in (c : Dev nD) : StableHlo.after (hostOps0 (F := Ideal)) (W0 m ρ c) (Proc.devRef .tc main_arg0)
    = (m ((c.tc : Thread nD τ).loc main_arg0)) := by
  after_results
  all_goals rfl

set_option maxHeartbeats 4000000 in
/-- Window 2's array: the neighbour weights, transposed. -/
theorem wl_in (c : Dev nD) : StableHlo.after (hostOps0 (F := Ideal)) (W0 m ρ c) (Proc.devRef .tc main_v25)
    = Stage.wT1 (F := Ideal) (m ((c.tc : Thread nD τ).loc main_arg2)) := by
  after_results
  all_goals rfl

set_option maxHeartbeats 4000000 in
/-- Window 3's array: the root weights, transposed. -/
theorem wr_in (c : Dev nD) : StableHlo.after (hostOps0 (F := Ideal)) (W0 m ρ c) (Proc.devRef .tc main_v26)
    = Stage.wT1 (F := Ideal) (m ((c.tc : Thread nD τ).loc main_arg4)) := by
  after_results
  all_goals rfl

set_option maxHeartbeats 4000000 in
/-- Window 4's array: the bias as a row. -/
theorem b_in (c : Dev nD) : StableHlo.after (hostOps0 (F := Ideal)) (W0 m ρ c) (Proc.devRef .tc main_v27)
    = Stage.row64 (F := Ideal) (m ((c.tc : Thread nD τ).loc main_arg3)) := by
  after_results
  all_goals rfl

end Cert.KernelIdeal.HostA

end
-- ==== Proof.HostB.lean ====
/-
  What the second stretch of host operations reads of the first stretch's results and of the arguments.

  The sources, the destinations and the reciprocal clamped in-degree are computed once, by the first stretch; the
  second stretch reads them again, with the second layer's weights and biases, which no operation writes.
-/
import proofs.«177301_j84413287236240_1_alg».proof.Proof.Gen.KernelIdeal.Frame
import proofs.«177301_j84413287236240_1_alg».proof.Proof.Stage
import Idealize.ShloMosaic.Lib.StableHlo.Run

set_option maxRecDepth 16384

noncomputable section

namespace Cert.KernelIdeal.HostB

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

set_option maxHeartbeats 4000000 in
/-- The sources. -/
theorem src_out (c : Dev nD) : StableHlo.after (hostOps0 (F := Ideal)) (W0 m ρ c) (Proc.devRef .tc main_v1)
    = (Stage.src (F := Ideal) (m ((c.tc : Thread nD τ).loc main_arg1))) := by
  after_results
  all_goals rfl

set_option maxHeartbeats 4000000 in
/-- The destinations. -/
theorem dst_out (c : Dev nD) : StableHlo.after (hostOps0 (F := Ideal)) (W0 m ρ c) (Proc.devRef .tc main_v3)
    = (Stage.dst (F := Ideal) (m ((c.tc : Thread nD τ).loc main_arg1))) := by
  after_results
  all_goals rfl

set_option maxHeartbeats 4000000 in
/-- The reciprocal of the clamped in-degree. -/
theorem inv_out (c : Dev nD) : StableHlo.after (hostOps0 (F := Ideal)) (W0 m ρ c) (Proc.devRef .tc main_v11)
    = (Stage.inv (F := Ideal) (Stage.dst (F := Ideal) (m ((c.tc : Thread nD τ).loc main_arg1)))) := by
  after_results
  all_goals rfl

set_option maxHeartbeats 4000000 in
/-- Argument 5 is as launched. -/
theorem arg5_kept (c : Dev nD) : StableHlo.after (hostOps0 (F := Ideal)) (W0 m ρ c) (Proc.devRef .tc main_arg5)
    = (m ((c.tc : Thread nD τ).loc main_arg5)) := by
  after_results
  all_goals rfl

set_option maxHeartbeats 4000000 in
/-- Argument 6 is as launched. -/
theorem arg6_kept (c : Dev nD) : StableHlo.after (hostOps0 (F := Ideal)) (W0 m ρ c) (Proc.devRef .tc main_arg6)
    = (m ((c.tc : Thread nD τ).loc main_arg6)) := by
  after_results
  all_goals rfl

set_option maxHeartbeats 4000000 in
/-- Argument 7 is as launched. -/
theorem arg7_kept (c : Dev nD) : StableHlo.after (hostOps0 (F := Ideal)) (W0 m ρ c) (Proc.devRef .tc main_arg7)
    = (m ((c.tc : Thread nD τ).loc main_arg7)) := by
  after_results
  all_goals rfl

set_option maxHeartbeats 4000000 in
/-- Argument 8 is as launched. -/
theorem arg8_kept (c : Dev nD) : StableHlo.after (hostOps0 (F := Ideal)) (W0 m ρ c) (Proc.devRef .tc main_arg8)
    = (m ((c.tc : Thread nD τ).loc main_arg8)) := by
  after_results
  all_goals rfl

set_option maxHeartbeats 4000000 in
/-- Argument 9 is as launched. -/
theorem arg9_kept (c : Dev nD) : StableHlo.after (hostOps0 (F := Ideal)) (W0 m ρ c) (Proc.devRef .tc main_arg9)
    = (m ((c.tc : Thread nD τ).loc main_arg9)) := by
  after_results
  all_goals rfl

end Cert.KernelIdeal.HostB

end
-- ==== Proof.HostC.lean ====
/-
  The arrays the second kernel region finds in its windows, from the contents at the first region's exit.

  The second stretch of host operations computes the neighbour mean of the first layer's output (the first region's
  result, which it leaves in place), the three transposed weight matrices and the two biases as rows.
-/
import proofs.«177301_j84413287236240_1_alg».proof.Proof.Gen.KernelIdeal.Frame
import proofs.«177301_j84413287236240_1_alg».proof.Proof.Stage
import Idealize.ShloMosaic.Lib.StableHlo.Run

set_option maxRecDepth 16384

noncomputable section

namespace Cert.KernelIdeal.HostC

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

set_option maxHeartbeats 4000000 in
/-- Window 0's array: the neighbour mean of the first layer's output. -/
theorem mean_in (c : Dev nD) : StableHlo.after (hostOps1 (F := Ideal)) (W2 m ρ c) (Proc.devRef .tc main_v41)
    = Stage.mean64 (F := Ideal) (W2 m ρ c (Proc.devRef .tc main_v28)) (W2 m ρ c (Proc.devRef .tc main_v1)) (W2 m ρ c (Proc.devRef .tc main_v3)) (W2 m ρ c (Proc.devRef .tc main_v11)) := by
  after_results
  all_goals rfl

set_option maxHeartbeats 4000000 in
/-- Window 1's array: the first layer's output, as the first region left it. -/
theorem root_in (c : Dev nD) : StableHlo.after (hostOps1 (F := Ideal)) (W2 m ρ c) (Proc.devRef .tc main_v28)
    = (W2 m ρ c (Proc.devRef .tc main_v28)) := by
  after_results
  all_goals rfl

set_option maxHeartbeats 4000000 in
/-- Window 2's array: the neighbour weights, transposed. -/
theorem wl_in (c : Dev nD) : StableHlo.after (hostOps1 (F := Ideal)) (W2 m ρ c) (Proc.devRef .tc main_v42)
    = Stage.wT2 (F := Ideal) (W2 m ρ c (Proc.devRef .tc main_arg5)) := by
  after_results
  all_goals rfl

set_option maxHeartbeats 4000000 in
/-- Window 3's array: the root weights, transposed. -/
theorem wr_in (c : Dev nD) : StableHlo.after (hostOps1 (F := Ideal)) (W2 m ρ c) (Proc.devRef .tc main_v43)
    = Stage.wT2 (F := Ideal) (W2 m ρ c (Proc.devRef .tc main_arg7)) := by
  after_results
  all_goals rfl

set_option maxHeartbeats 4000000 in
/-- Window 4's array: the bias as a row. -/
theorem b_in (c : Dev nD) : StableHlo.after (hostOps1 (F := Ideal)) (W2 m ρ c) (Proc.devRef .tc main_v45)
    = Stage.row32 (F := Ideal) (W2 m ρ c (Proc.devRef .tc main_arg6)) := by
  after_results
  all_goals rfl

set_option maxHeartbeats 4000000 in
/-- Window 5's array: the output weights, transposed. -/
theorem wfc_in (c : Dev nD) : StableHlo.after (hostOps1 (F := Ideal)) (W2 m ρ c) (Proc.devRef .tc main_v44)
    = Stage.wT3 (F := Ideal) (W2 m ρ c (Proc.devRef .tc main_arg8)) := by
  after_results
  all_goals rfl

set_option maxHeartbeats 4000000 in
/-- Window 6's array: the output bias as a row. -/
theorem bfc_in (c : Dev nD) : StableHlo.after (hostOps1 (F := Ideal)) (W2 m ρ c) (Proc.devRef .tc main_v46)
    = Stage.row40 (F := Ideal) (W2 m ρ c (Proc.devRef .tc main_arg9)) := by
  after_results
  all_goals rfl

end Cert.KernelIdeal.HostC

end
-- ==== Proof.Results.lean ====
/-
  The idealized kernel's two results as functions of its arguments.

  The first region finds, in its windows, the neighbour mean of the input features, the features themselves, the first
  layer's transposed weights and its bias row: its output array is `h1`. Nothing between the regions writes that array,
  the edge list's two rows or the reciprocal in-degree, so the second stretch computes the neighbour mean of `h1` with
  the same sources, destinations and reciprocal; the second region's two output arrays are then `emb` and `logits`.
-/
import proofs.«177301_j84413287236240_1_alg».proof.Proof.Gen.KernelIdeal.Frame
import proofs.«177301_j84413287236240_1_alg».proof.Proof.Stage
import proofs.«177301_j84413287236240_1_alg».proof.Proof.Region0
import proofs.«177301_j84413287236240_1_alg».proof.Proof.Region1
import proofs.«177301_j84413287236240_1_alg».proof.Proof.HostA
import proofs.«177301_j84413287236240_1_alg».proof.Proof.HostB
import proofs.«177301_j84413287236240_1_alg».proof.Proof.HostC

set_option maxRecDepth 16384

noncomputable section

namespace Cert.KernelIdeal.Results

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The first region's output array is the first layer of the arguments. -/
theorem h1_eq (c : Dev nD) : (dat0 (F := Ideal) (V1 m ρ) c).arrAt 5 cfg0.N = Stage.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (Region0.final (V1 m ρ) c).trans ?_
  have e0 : V1 m ρ c main_v24 = _ := HostA.mean_in m ρ c
  have e1 : V1 m ρ c main_arg0 = _ := HostA.root_in m ρ c
  have e2 : V1 m ρ c main_v25 = _ := HostA.wl_in m ρ c
  have e3 : V1 m ρ c main_v26 = _ := HostA.wr_in m ρ c
  have e4 : V1 m ρ c main_v27 = _ := HostA.b_in m ρ c
  unfold Region0.out Stage.h1
  rw [e0, e1, e2, e3, e4] <;> rfl

/-! ## The contents at the first region's exit that the second stretch reads -/

/-- The first layer's array, as the first region left it. -/
theorem W2_h1 (c : Dev nD) : W2 m ρ c (Proc.devRef .tc main_v28) = Stage.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 5).trans (h1_eq m ρ c)
/-- The sources, as the first stretch left them. -/
theorem W2_src (c : Dev nD) : W2 m ρ c (Proc.devRef .tc main_v1) = (Stage.src (F := Ideal) (m ((c.tc : Thread nD τ).loc main_arg1))) :=
  (W2_of_ne m ρ c main_v1 (by decide)).trans (HostB.src_out m ρ c)

/-- The destinations, as the first stretch left them. -/
theorem W2_dst (c : Dev nD) : W2 m ρ c (Proc.devRef .tc main_v3) = (Stage.dst (F := Ideal) (m ((c.tc : Thread nD τ).loc main_arg1))) :=
  (W2_of_ne m ρ c main_v3 (by decide)).trans (HostB.dst_out m ρ c)

/-- The reciprocal clamped in-degree, as the first stretch left it. -/
theorem W2_inv (c : Dev nD) : W2 m ρ c (Proc.devRef .tc main_v11) = (Stage.inv (F := Ideal) (Stage.dst (F := Ideal) (m ((c.tc : Thread nD τ).loc main_arg1)))) :=
  (W2_of_ne m ρ c main_v11 (by decide)).trans (HostB.inv_out m ρ c)

/-- Argument 5, as launched. -/
theorem W2_arg5 (c : Dev nD) : W2 m ρ c (Proc.devRef .tc main_arg5) = (m ((c.tc : Thread nD τ).loc main_arg5)) :=
  (W2_of_ne m ρ c main_arg5 (by decide)).trans (HostB.arg5_kept m ρ c)

/-- Argument 6, as launched. -/
theorem W2_arg6 (c : Dev nD) : W2 m ρ c (Proc.devRef .tc main_arg6) = (m ((c.tc : Thread nD τ).loc main_arg6)) :=
  (W2_of_ne m ρ c main_arg6 (by decide)).trans (HostB.arg6_kept m ρ c)

/-- Argument 7, as launched. -/
theorem W2_arg7 (c : Dev nD) : W2 m ρ c (Proc.devRef .tc main_arg7) = (m ((c.tc : Thread nD τ).loc main_arg7)) :=
  (W2_of_ne m ρ c main_arg7 (by decide)).trans (HostB.arg7_kept m ρ c)

/-- Argument 8, as launched. -/
theorem W2_arg8 (c : Dev nD) : W2 m ρ c (Proc.devRef .tc main_arg8) = (m ((c.tc : Thread nD τ).loc main_arg8)) :=
  (W2_of_ne m ρ c main_arg8 (by decide)).trans (HostB.arg8_kept m ρ c)

/-- Argument 9, as launched. -/
theorem W2_arg9 (c : Dev nD) : W2 m ρ c (Proc.devRef .tc main_arg9) = (m ((c.tc : Thread nD τ).loc main_arg9)) :=
  (W2_of_ne m ρ c main_arg9 (by decide)).trans (HostB.arg9_kept m ρ c)

/-! ## The second region's two output arrays -/

/-- The second region's first output array is the embedding. -/
theorem emb_eq (c : Dev nD) : (dat1 (F := Ideal) (V3 m ρ) c).arrAt 7 cfg1.N = Stage.emb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (Region1.finalL (V3 m ρ) c).trans ?_
  have e0 : V3 m ρ c main_v41 = _ := HostC.mean_in m ρ c
  have e1 : V3 m ρ c main_v28 = _ := HostC.root_in m ρ c
  have e2 : V3 m ρ c main_v42 = _ := HostC.wl_in m ρ c
  have e3 : V3 m ρ c main_v43 = _ := HostC.wr_in m ρ c
  have e4 : V3 m ρ c main_v45 = _ := HostC.b_in m ρ c
  unfold Region1.outL Stage.emb
  rw [e0, e1, e2, e3, e4, W2_h1 m ρ c, W2_src m ρ c, W2_dst m ρ c, W2_inv m ρ c, W2_arg5 m ρ c, W2_arg6 m ρ c,
    W2_arg7 m ρ c] <;> rfl

/-- The second region's second output array is the affine output. -/
theorem logits_eq (c : Dev nD) : (dat1 (F := Ideal) (V3 m ρ) c).arrAt 8 cfg1.N = Stage.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (Region1.finalA (V3 m ρ) c).trans ?_
  have e0 : V3 m ρ c main_v41 = _ := HostC.mean_in m ρ c
  have e1 : V3 m ρ c main_v28 = _ := HostC.root_in m ρ c
  have e2 : V3 m ρ c main_v42 = _ := HostC.wl_in m ρ c
  have e3 : V3 m ρ c main_v43 = _ := HostC.wr_in m ρ c
  have e4 : V3 m ρ c main_v45 = _ := HostC.b_in m ρ c
  have e5 : V3 m ρ c main_v44 = _ := HostC.wfc_in m ρ c
  have e6 : V3 m ρ c main_v46 = _ := HostC.bfc_in m ρ c
  unfold Region1.outA Region1.outL Stage.logits Stage.emb
  rw [e0, e1, e2, e3, e4, e5, e6, W2_h1 m ρ c, W2_src m ρ c, W2_dst m ρ c, W2_inv m ρ c, W2_arg5 m ρ c, W2_arg6 m ρ c,
    W2_arg7 m ρ c, W2_arg8 m ρ c, W2_arg9 m ρ c] <;> rfl

end Cert.KernelIdeal.Results

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.Mean.lean ====
/-
  The neighbour mean at an entry.

  The in-degree of a node is zero plus a finite sum of ones, a real number. So its clamp max(deg, 1) is a real number
  that is not zero, and the neighbour sum times the reciprocal 1 / max(deg, 1) is the neighbour sum divided by
  max(deg, 1), entry by entry: the per-node reciprocal, repeated along the feature axis, reads the node's entry.
-/
import proofs.«177301_j84413287236240_1_alg».proof.Proof.Stage
import proofs.«177301_j84413287236240_1_alg».proof.Proof.LibColumn
import proofs.«177301_j84413287236240_1_alg».proof.Proof.LibFinite
import Idealize.ShloMosaic.Lib.ValueIdx
import Idealize.ShloMosaic.Lib.IdealHost

noncomputable section

namespace Cert.KernelIdeal.Stage

open Cert.KernelIdeal Cert.KernelIdeal.Gen Idealize.ShloMosaic Idealize.ShloMosaic.ValueIdx
open Idealize.ShloMosaic.LibFinite

/-- A scalar float constant repeated over any shape reads its word's value everywhere. -/
theorem bcast_const_apply {t : Shape} (h : S_.BroadcastsInDim t (![] : Fin 0 → Fin t.rank)) (w : BitVec 32) (j : t.Idx) :
    broadcastInDim t ![] h (constant (F := Ideal) S_ .f32 w) j = Ideal.ofBits .f32 w :=
  Cert.LibColumn.bcastInDim_scalar_apply (constant (F := Ideal) S_ .f32 w) h j ix0

/-- The in-degree of every node is a real number. -/
theorem deg_isReal (d : S800000.Idx → BitVec 32) (i : S50000.Idx) : IsReal (deg (F := Ideal) d i) := by
  unfold deg
  refine isReal_scatterAdd _ _ _ _ (fun i => ?_) (fun j => ?_) i
  · rw [bcast_const_apply]; exact isReal_ofBits_zero
  · rw [bcast_const_apply]; exact isReal_ofBits_one

/-- The reciprocal of the clamped in-degree at a node. -/
theorem inv_apply (d : S800000.Idx → BitVec 32) (p : Fin 50000) :
    inv (F := Ideal) d (ix1 p) = Ideal.div Cert.Sage.one (max (deg (F := Ideal) d (ix1 p)) Cert.Sage.one) := by
  unfold inv clamped
  rw [hostDivf_apply, maximumf_apply, bcast_const_apply]

/-- The neighbour mean of 128 features at (p, k): the neighbour sum divided by the clamped in-degree of node p. -/
theorem mean128_apply (f : S50000x128.Idx → EReal) (s d : S800000.Idx → BitVec 32) (p : Fin 50000) (k : Fin 128) :
    mean128 (F := Ideal) f s d (inv (F := Ideal) d) (ix2 p k)
      = Ideal.div (agg128 (F := Ideal) f s d (ix2 p k)) (max (deg (F := Ideal) d (ix1 p)) Cert.Sage.one) := by
  unfold mean128 spread128
  rw [mulf_apply, Cert.LibColumn.bcastInDim_a1_ab_apply, Cert.LibColumn.bcastInDim_a_a1_apply, inv_apply]
  exact Cert.Sage.mean_law _ _ (deg_isReal d (ix1 p))

/-- The neighbour mean of 64 features at (p, k): the neighbour sum divided by the clamped in-degree of node p. -/
theorem mean64_apply (f : S50000x64.Idx → EReal) (s d : S800000.Idx → BitVec 32) (p : Fin 50000) (k : Fin 64) :
    mean64 (F := Ideal) f s d (inv (F := Ideal) d) (ix2 p k)
      = Ideal.div (agg64 (F := Ideal) f s d (ix2 p k)) (max (deg (F := Ideal) d (ix1 p)) Cert.Sage.one) := by
  unfold mean64 spread64
  rw [mulf_apply, Cert.LibColumn.bcastInDim_a1_ab_apply, Cert.LibColumn.bcastInDim_a_a1_apply, inv_apply]
  exact Cert.Sage.mean_law _ _ (deg_isReal d (ix1 p))

end Cert.KernelIdeal.Stage

end
-- ==== Proof.RefValue.lean ====
/-
  The reference's results are the same three functions of the arguments.

  The reference computes, stage by stage, the same arrays as the kernel's host side (sources, destinations, in-degree,
  neighbour sums are the same operations on the same operands) except in two places: it DIVIDES the neighbour sum by the
  clamped in-degree where the kernel multiplies by the reciprocal (equal at every entry by the mean's law), and it adds
  the bias before the root term (the same sum in another order). Its matrix products are whole products, read at an
  entry as the same sums over the contracted axis.
-/
import proofs.«177301_j84413287236240_1_alg».proof.Proof.Gen.ReferenceIdeal.Read
import proofs.«177301_j84413287236240_1_alg».proof.Proof.Stage
import proofs.«177301_j84413287236240_1_alg».proof.Proof.Mean
import Idealize.ShloMosaic.Lib.ValueIdx
import Idealize.ShloMosaic.Lib.ValueLayout

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : S50000x128.Idx → EReal) (x1 : S2x800000.Idx → BitVec 32)
  (x2 : S64x128.Idx → EReal) (x3 : S64.Idx → EReal) (x4 : S64x128.Idx → EReal)
  (x5 : S32x64.Idx → EReal) (x6 : S32.Idx → EReal) (x7 : S32x64.Idx → EReal)
  (x8 : S40x32.Idx → EReal) (x9 : S40.Idx → EReal)

/-! ## The shared stages are the same arrays -/

theorem agg1_eq : val_main_v13 (F := Ideal) x0 x1
    = Cert.KernelIdeal.Stage.agg128 (F := Ideal) x0 (Cert.KernelIdeal.Stage.src (F := Ideal) x1) (Cert.KernelIdeal.Stage.dst (F := Ideal) x1) := rfl
theorem deg1_eq : val_main_v17 (F := Ideal) x1 = Cert.KernelIdeal.Stage.deg (F := Ideal) (Cert.KernelIdeal.Stage.dst (F := Ideal) x1) := rfl
theorem agg2_eq : val_main_v41 (F := Ideal) x0 x1 x2 x3 x4
    = Cert.KernelIdeal.Stage.agg64 (F := Ideal) (val_main_v31 (F := Ideal) x0 x1 x2 x3 x4) (Cert.KernelIdeal.Stage.src (F := Ideal) x1) (Cert.KernelIdeal.Stage.dst (F := Ideal) x1) := rfl
theorem deg2_eq : val_main_v45 (F := Ideal) x1 = Cert.KernelIdeal.Stage.deg (F := Ideal) (Cert.KernelIdeal.Stage.dst (F := Ideal) x1) := rfl

/-! ## Index maps of the read lemmas, at coordinates -/

theorem lidx24 (p : Fin 50000) (q : Fin 64) (k : Fin 128) : lidx_main_v24 (ix2 p q) k = ix2 p k :=
  funext fun a => Fin.ext (by match a with | ⟨0, _⟩ => rfl | ⟨1, _⟩ => rfl)
theorem ridx24 (p : Fin 50000) (q : Fin 64) (k : Fin 128) : ridx_main_v24 (ix2 p q) k = ix2 k q :=
  funext fun a => Fin.ext (by match a with | ⟨0, _⟩ => rfl | ⟨1, _⟩ => rfl)
theorem lidx29 (p : Fin 50000) (q : Fin 64) (k : Fin 128) : lidx_main_v29 (ix2 p q) k = ix2 p k :=
  funext fun a => Fin.ext (by match a with | ⟨0, _⟩ => rfl | ⟨1, _⟩ => rfl)
theorem ridx29 (p : Fin 50000) (q : Fin 64) (k : Fin 128) : ridx_main_v29 (ix2 p q) k = ix2 k q :=
  funext fun a => Fin.ext (by match a with | ⟨0, _⟩ => rfl | ⟨1, _⟩ => rfl)
theorem lidx52 (p : Fin 50000) (q : Fin 32) (k : Fin 64) : lidx_main_v52 (ix2 p q) k = ix2 p k :=
  funext fun a => Fin.ext (by match a with | ⟨0, _⟩ => rfl | ⟨1, _⟩ => rfl)
theorem ridx52 (p : Fin 50000) (q : Fin 32) (k : Fin 64) : ridx_main_v52 (ix2 p q) k = ix2 k q :=
  funext fun a => Fin.ext (by match a with | ⟨0, _⟩ => rfl | ⟨1, _⟩ => rfl)
theorem lidx57 (p : Fin 50000) (q : Fin 32) (k : Fin 64) : lidx_main_v57 (ix2 p q) k = ix2 p k :=
  funext fun a => Fin.ext (by match a with | ⟨0, _⟩ => rfl | ⟨1, _⟩ => rfl)
theorem ridx57 (p : Fin 50000) (q : Fin 32) (k : Fin 64) : ridx_main_v57 (ix2 p q) k = ix2 k q :=
  funext fun a => Fin.ext (by match a with | ⟨0, _⟩ => rfl | ⟨1, _⟩ => rfl)
theorem lidx61 (p : Fin 50000) (q : Fin 40) (k : Fin 32) : lidx_main_v61 (ix2 p q) k = ix2 p k :=
  funext fun a => Fin.ext (by match a with | ⟨0, _⟩ => rfl | ⟨1, _⟩ => rfl)
theorem ridx61 (p : Fin 50000) (q : Fin 40) (k : Fin 32) : ridx_main_v61 (ix2 p q) k = ix2 k q :=
  funext fun a => Fin.ext (by match a with | ⟨0, _⟩ => rfl | ⟨1, _⟩ => rfl)
theorem bidx26 (p : Fin 50000) (q : Fin 64) : idx_main_v25 (idx_main_v26 (ix2 p q)) = ix1 q :=
  funext fun a => Fin.ext (by match a with | ⟨0, _⟩ => rfl)
theorem bidx54 (p : Fin 50000) (q : Fin 32) : idx_main_v53 (idx_main_v54 (ix2 p q)) = ix1 q :=
  funext fun a => Fin.ext (by match a with | ⟨0, _⟩ => rfl)
theorem bidx63 (p : Fin 50000) (q : Fin 40) : idx_main_v62 (idx_main_v63 (ix2 p q)) = ix1 q :=
  funext fun a => Fin.ext (by match a with | ⟨0, _⟩ => rfl)
theorem didx21 (p : Fin 50000) (k : Fin 128) : idx_main_v20 (idx_main_v21 (ix2 p k)) = ix1 p :=
  funext fun a => Fin.ext (by match a with | ⟨0, _⟩ => rfl)
theorem didx49 (p : Fin 50000) (k : Fin 64) : idx_main_v48 (idx_main_v49 (ix2 p k)) = ix1 p :=
  funext fun a => Fin.ext (by match a with | ⟨0, _⟩ => rfl)

/-! ## The two means -/

/-- The reference's first mean at (p, k) is the kernel's. -/
theorem mean1_apply (p : Fin 50000) (k : Fin 128) :
    val_main_v22 (F := Ideal) x0 x1 (ix2 p k)
      = Cert.KernelIdeal.Stage.mean128 (F := Ideal) x0 (Cert.KernelIdeal.Stage.src (F := Ideal) x1) (Cert.KernelIdeal.Stage.dst (F := Ideal) x1)
          (Cert.KernelIdeal.Stage.inv (F := Ideal) (Cert.KernelIdeal.Stage.dst (F := Ideal) x1)) (ix2 p k) := by
  rw [Cert.KernelIdeal.Stage.mean128_apply, val_main_v22_apply, val_main_v21_apply, val_main_v20_apply, didx21, val_main_v19_apply,
    val_main_v18_apply, val_main_cst_3_apply, agg1_eq, deg1_eq]
  rfl

/-- The reference's second mean at (p, k) is the kernel's, of the reference's first layer. -/
theorem mean2_apply (p : Fin 50000) (k : Fin 64) :
    val_main_v50 (F := Ideal) x0 x1 x2 x3 x4 (ix2 p k)
      = Cert.KernelIdeal.Stage.mean64 (F := Ideal) (val_main_v31 (F := Ideal) x0 x1 x2 x3 x4) (Cert.KernelIdeal.Stage.src (F := Ideal) x1) (Cert.KernelIdeal.Stage.dst (F := Ideal) x1)
          (Cert.KernelIdeal.Stage.inv (F := Ideal) (Cert.KernelIdeal.Stage.dst (F := Ideal) x1)) (ix2 p k) := by
  rw [Cert.KernelIdeal.Stage.mean64_apply, val_main_v50_apply, val_main_v49_apply, val_main_v48_apply, didx49, val_main_v47_apply,
    val_main_v46_apply, val_main_cst_9_apply, agg2_eq, deg2_eq]
  rfl

/-! ## The three results -/

/-- The reference's first layer is `h1`. -/
theorem layer1_eq : val_main_v31 (F := Ideal) x0 x1 x2 x3 x4 = Cert.KernelIdeal.Stage.h1 x0 x1 x2 x3 x4 := by
  funext i
  obtain ⟨p, q, rfl⟩ : ∃ (p : Fin 50000) (q : Fin 64), i = ix2 p q := ⟨i 0, i 1, eq_ix2 i⟩
  rw [val_main_v31_apply, val_main_v30_apply, val_main_v27_apply, val_main_v24_apply, val_main_v29_apply,
    val_main_v26_apply, val_main_v25_apply, val_main_call0_v0_apply, val_main_call0_cst_apply]
  simp only [lidx24, ridx24, lidx29, ridx29, bidx26, mean1_apply]
  unfold Cert.KernelIdeal.Stage.h1
  rw [Cert.Sage.layer_apply, ← Cert.Sage.layerAt_bias_first]
  have hb : Cert.KernelIdeal.Stage.rowVec (Cert.KernelIdeal.Stage.row64 (F := Ideal) x3) (ix1 q) = x3 (ix1 q) := shapeCast_a_1a_apply x3 _ 0 q
  rw [hb]
  rfl

/-- The reference's second layer is `emb`. -/
theorem layer2_eq : val_main_v59 (F := Ideal) x0 x1 x2 x3 x4 x5 x6 x7 = Cert.KernelIdeal.Stage.emb x0 x1 x2 x3 x4 x5 x6 x7 := by
  funext i
  obtain ⟨p, q, rfl⟩ : ∃ (p : Fin 50000) (q : Fin 32), i = ix2 p q := ⟨i 0, i 1, eq_ix2 i⟩
  rw [val_main_v59_apply, val_main_v58_apply, val_main_v55_apply, val_main_v52_apply, val_main_v57_apply,
    val_main_v54_apply, val_main_v53_apply, val_main_call1_v0_apply, val_main_call1_cst_apply]
  simp only [lidx52, ridx52, lidx57, ridx57, bidx54, mean2_apply, layer1_eq]
  unfold Cert.KernelIdeal.Stage.emb
  rw [Cert.Sage.layer_apply, ← Cert.Sage.layerAt_bias_first]
  have hb : Cert.KernelIdeal.Stage.rowVec (Cert.KernelIdeal.Stage.row32 (F := Ideal) x6) (ix1 q) = x6 (ix1 q) := shapeCast_a_1a_apply x6 _ 0 q
  rw [hb]
  rfl

/-- The reference's affine output is `logits`. -/
theorem out_eq : val_main_v64 (F := Ideal) x0 x1 x2 x3 x4 x5 x6 x7 x8 x9 = Cert.KernelIdeal.Stage.logits x0 x1 x2 x3 x4 x5 x6 x7 x8 x9 := by
  funext i
  obtain ⟨p, q, rfl⟩ : ∃ (p : Fin 50000) (q : Fin 40), i = ix2 p q := ⟨i 0, i 1, eq_ix2 i⟩
  rw [val_main_v64_apply, val_main_v61_apply, val_main_v63_apply, val_main_v62_apply]
  simp only [lidx61, ridx61, bidx63, layer2_eq]
  unfold Cert.KernelIdeal.Stage.logits
  rw [Cert.Sage.fc_apply]
  unfold Cert.Sage.fcAt
  have hb : Cert.KernelIdeal.Stage.rowVec (Cert.KernelIdeal.Stage.row40 (F := Ideal) x9) (ix1 q) = x9 (ix1 q) := shapeCast_a_1a_apply x9 _ 0 q
  rw [hb]
  rfl

end Cert.ReferenceIdeal.RefValue

end
-- ==== Proof.lean ====
/-
  A two-layer mean-aggregation graph network (two fused kernels, each a node-blocked pair of matrix products with bias
  and a clamp at zero, the second followed by an affine output) against its plain reference, on the extended reals.

  Both programs compute, from the edge list, the in-degree deg and the neighbour sum agg f of a feature array f by the
  same gather and scatter-add. The kernel scales agg f by the reciprocal 1 / max(deg, 1), the reference divides agg f by
  max(deg, 1): the in-degree is zero plus a finite sum of ones, a real number, so max(deg, 1) is a non-zero real and the
  two agree at every entry. Each layer is max(mean·Wlᵀ + root·Wrᵀ + b, 0); the kernel adds the bias last, the reference
  before the root term, the same sum in another order. The kernels compute the products block of 5000 nodes by block,
  each into a zero accumulator with operands narrowed to a shorter float format, which changes nothing on the extended
  reals; the ten blocks cover the 50000 nodes, so each output array is one whole-array function: h1, then the
  embedding emb = layer(mean h1, h1) and logits = emb·Wfcᵀ + bfc — the functions the reference's stages are.

  The kernel's frames are the generated ones; the reference's frame is its generated run with the results dropped; the
  idealization rewrote nothing, so `preserves` is trivial.
-/
import proofs.«177301_j84413287236240_1_alg».proof.Defs
import proofs.«177301_j84413287236240_1_alg».proof.Proof.Gen.Kernel
import proofs.«177301_j84413287236240_1_alg».proof.Proof.Gen.Kernel.Skeleton
import proofs.«177301_j84413287236240_1_alg».proof.Proof.Gen.Kernel.Launch
import proofs.«177301_j84413287236240_1_alg».proof.Proof.Gen.Kernel.Points
import proofs.«177301_j84413287236240_1_alg».proof.Proof.Gen.Kernel.Frame
import proofs.«177301_j84413287236240_1_alg».proof.Proof.Gen.KernelIdeal
import proofs.«177301_j84413287236240_1_alg».proof.Proof.Gen.KernelIdeal.Skeleton
import proofs.«177301_j84413287236240_1_alg».proof.Proof.Gen.KernelIdeal.Launch
import proofs.«177301_j84413287236240_1_alg».proof.Proof.Gen.KernelIdeal.Points
import proofs.«177301_j84413287236240_1_alg».proof.Proof.Gen.KernelIdeal.Frame
import proofs.«177301_j84413287236240_1_alg».proof.Proof.Gen.ReferenceIdeal
import proofs.«177301_j84413287236240_1_alg».proof.Proof.Gen.Pre_finite_inputs
import proofs.«177301_j84413287236240_1_alg».proof.Proof.Gen.ReferenceIdeal.Run
import proofs.«177301_j84413287236240_1_alg».proof.Proof.Gen.ReferenceIdeal.Read
import proofs.«177301_j84413287236240_1_alg».proof.Proof.KernelRun
import proofs.«177301_j84413287236240_1_alg».proof.Proof.Results
import proofs.«177301_j84413287236240_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ
/-- The idealized kernel runs and keeps its arguments. -/
theorem frame_ki : Cert.frame_KernelIdeal := fun m ρ _ => Cert.KernelIdeal.Gen.frame m ρ
/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the embedding and the affine output of those
    arguments: the kernel by its two regions' output arrays, the reference by its stages. -/
theorem algebraic : Cert.algebraic_KernelIdeal_ReferenceIdeal := by
  intro m ρ m' ρ' _ hagree
  refine ⟨fun c => Cert.KernelIdeal.Stage.emb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Stage.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Results.emb_eq m ρ c),
        (h c).2.1.trans (Cert.KernelIdeal.Results.logits_eq m ρ c), (h c).2.2⟩)
      (Cert.KernelIdeal.Named.run (F := Ideal) m ρ)
  · refine (θ_run Cert.ReferenceIdeal.defs _ _).mono (fun _ h c => ?_) (Cert.ReferenceIdeal.Value.run (F := Ideal) m' ρ')
    obtain ⟨a0, a1, a2, a3, a4, a5, a6, a7, a8, a9⟩ := hagree c
    refine ⟨(h c).1.trans ?_, (h c).2.1.trans ?_, (h c).2.2⟩
    · rw [Cert.ReferenceIdeal.Read.val_main_v59_eq, Cert.ReferenceIdeal.RefValue.layer2_eq, a0, a1, a2, a3, a4, a5, a6, a7]
    · rw [Cert.ReferenceIdeal.Read.val_main_v64_eq, Cert.ReferenceIdeal.RefValue.out_eq, a0, a1, a2, a3, a4, a5, a6, a7,
        a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
